-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.sign_bit.Statement Cert.KernelIdeal.S2048x128 .f32
  ∧ IdealRules.sign_bit.Statement Cert.KernelIdeal.S2048x128 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_cst_10 : FVec F S_ .f32 := constant S_ .f32 0x00000000#32
  let main_v29 : FVec F S4096 .f32 := broadcastInDim S4096 ![] bcast_S_S4096 main_cst_10
  let main_v30 : IVec S4096 1 := cmpf .oge main_arg5 main_v29
  let main_c_11 : IVec S_ 1 := constantI S_ 1 1#1
  let main_v31 : IVec S_ 1 := (fun x v => Host.reduce IntOp.andi x v reducesTo_S4096_S_d0 h_S_) main_v30 main_c_11
  let main_v32 : IVec S_ 1 := andi main_v28 main_v31
  main_v32

def fn {F : FTy → Type} [FloatOps F] (main_arg0 : FVec F S8192x4096 .f32) (main_arg1 : FVec F S4096x4096 .f32) (main_arg2 : FVec F S4096 .f32) (main_arg3 : FVec F S4096 .f32) (main_arg4 : FVec F S4096 .f32) (main_arg5 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S2048x128 : Shape := ⟨2, ![2048, 128]⟩
abbrev S1x2048 : Shape := ⟨2, ![1, 2048]⟩
abbrev S2048x2048 : Shape := ⟨2, ![2048, 2048]⟩

abbrev nBuf : Space → Nat
  | .hbm => 17
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S4096, .f32⟩
  | .hbm, ⟨11, _⟩ => ⟨S1x4096, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S1x4096, .f32⟩
  | .hbm, ⟨16, _⟩ => ⟨S8192x4096, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S2048x2048, .f32⟩
  | .local _ .vmem, ⟨9, _⟩ => ⟨S2048x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [BitOps F]

abbrev grid0 : Pipeline.Grid := ⟨3, ![4, 2, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S4096 : S_.BroadcastsInDim S4096 (![] : Fin 0 → Fin S4096.rank)
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  dot_S2048x128_S2048x128_S2048x2048_1_1_0_0_n_n_wf : DotDims.WF S2048x128 S2048x128 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x4096.size a
  hwx0_0 : ∀ i : grid0.Coords, EltTy.bits .f32 = 32 ∨ (Rect.block (s := S8192x4096) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S4096x4096.size a
  hwx0_1 : ∀ i : grid0.Coords, EltTy.bits .f32 = 32 ∨ (Rect.block (s := S4096x4096) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S8192x4096.size a
  hwx0_4 : ∀ i : grid0.Coords, EltTy.bits .f32 = 32 ∨ (Rect.block (s := S8192x4096) S2048x2048.size (cc0_transform_4 i) (hinb0_4 i)).WholeWords (EltTy.packing .f32)

variable [Facts₀]

def dot_S2048x128_S2048x128_S2048x2048_1_1_0_0_n_n : DotDims S2048x128 S2048x128 S2048x2048 where
  lhsContracting := [1]
  rhsContracting := [1]
  lhsNonContracting := [0]
  rhsNonContracting := [0]
  lhsBatch := []
  rhsBatch := []
  wf := dot_S2048x128_S2048x128_S2048x2048_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S4096x4096, .f32⟩
  | .hbm, ⟨8, _⟩ => ⟨S8192x4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S1x4096, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.BnAlgebra.lean ====
/-
  The arithmetic behind a binarized linear layer followed by batch normalisation, on the extended reals.

  Both programs form, for a row `b` of the activations and a row `o` of the weights, the integer
  `A = ∑ k, sign x[b,k] · sign w[o,k]`, and then normalise it with the running statistics of channel `o`:
  one as `(A - μ) / s · γ + β`, the other with the affine map folded, `A · (γ / s) + (β - μ · (γ / s))`,
  where `s = √(v + ε)`. For real `γ, β, μ`, a real variance `v ≥ 0` and a real `ε > 0` the deviation `s`
  is a positive real, every quantity is real, and the two expressions are one real number (distributivity
  and cancellation in a field). A sum of 4096 terms is also the sum of 32 consecutive groups of 128.
-/
import Idealize.ShloMosaic.PureOps.Ideal
import Idealize.ShloMosaic.PureOps.Ideal.Laws
import Idealize.ShloMosaic.Lib.ValueIdx

noncomputable section

namespace Cert.BinBn

open Idealize.ShloMosaic

/-- A finite sum of extended reals that are all real numbers is a real number. -/
theorem exists_real_sum {ι : Type*} (s : Finset ι) (g : ι → EReal) (hg : ∀ k ∈ s, ∃ r : ℝ, g k = (r : EReal)) :
    ∃ A : ℝ, ∑ k ∈ s, g k = (A : EReal) := by
  classical
  induction s using Finset.induction_on with
  | empty => exact ⟨0, by simp⟩
  | insert a s ha ih =>
    obtain ⟨A, hA⟩ := ih (fun k hk => hg k (Finset.mem_insert_of_mem hk))
    obtain ⟨r, hr⟩ := hg a (Finset.mem_insert_self a s)
    exact ⟨r + A, by rw [Finset.sum_insert ha, hA, hr, EReal.coe_add]⟩

/-- The sign of an extended real is one of the reals -1, 0, 1. -/
theorem sign_real (a : EReal) : ∃ r : ℝ, Ideal.sign a = (r : EReal) := by
  induction a using EReal.rec with
  | bot => exact ⟨-1, by rw [Ideal.sign_bot]; norm_num⟩
  | coe r => exact ⟨_, Ideal.sign_coe (r := r)⟩
  | top => exact ⟨1, by rw [Ideal.sign_top]; norm_num⟩

/-- A sum over `128 · n` consecutive naturals is the sum of `n` consecutive groups of 128. -/
theorem sum_groups (g : ℕ → EReal) (n : ℕ) :
    ∑ k ∈ Finset.range (128 * n), g k = ∑ s ∈ Finset.range n, ∑ l ∈ Finset.range 128, g (128 * s + l) := by
  induction n with
  | zero => simp
  | succ n ih =>
    rw [Nat.mul_succ, Finset.sum_range_add, ih]
    exact (Finset.sum_range_succ (fun s => ∑ l ∈ Finset.range 128, g (128 * s + l)) n).symm

/-- THE LAW that joins the two programs: with real statistics, a nonnegative variance and a positive `ε`, the
    folded affine map `A · (γ/s) + (β - μ · (γ/s))` and the unfolded normalisation `(A - μ)/s · γ + β` agree,
    `s = √(v + ε)` being a positive real. -/
theorem folded_eq_unfolded (A μ γ β v e : ℝ) (hv : 0 ≤ v) (he : 0 < e) :
    (A : EReal) * Ideal.div (γ : EReal) (Ideal.sqrt ((v : EReal) + (e : EReal)))
        + ((β : EReal) - (μ : EReal) * Ideal.div (γ : EReal) (Ideal.sqrt ((v : EReal) + (e : EReal))))
      = Ideal.div ((A : EReal) - (μ : EReal)) (Ideal.sqrt ((v : EReal) + (e : EReal))) * (γ : EReal) + (β : EReal) := by
  have hpos : 0 < v + e := by linarith
  have hs : Ideal.sqrt ((v : EReal) + (e : EReal)) = ((Real.sqrt (v + e) : ℝ) : EReal) := by
    rw [← EReal.coe_add, Ideal.sqrt_coe, if_neg (not_lt.mpr hpos.le)]
  have ht : Real.sqrt (v + e) ≠ 0 := (Real.sqrt_pos.mpr hpos).ne'
  rw [hs, Ideal.div_coe ht, Ideal.div_coe ht]
  norm_cast
  ring

/-- The `k`-th product of signs along row `b` of the activations and row `o` of the weights, as a function of a
    natural number (0 past the end of the rows), so that sums over different groupings of `k` can be compared. -/
def signProd (x : (⟨2, ![8192, 4096]⟩ : Shape).Idx → EReal) (w : (⟨2, ![4096, 4096]⟩ : Shape).Idx → EReal)
    (b : Fin 8192) (o : Fin 4096) (k : ℕ) : EReal :=
  if h : k < 4096 then Ideal.sign (x (ValueIdx.ix2 b ⟨k, h⟩)) * Ideal.sign (w (ValueIdx.ix2 o ⟨k, h⟩)) else 0

/-- Each product of signs is a real number, so the binarized dot product of two rows is a real number. -/
theorem dot_real (x : (⟨2, ![8192, 4096]⟩ : Shape).Idx → EReal) (w : (⟨2, ![4096, 4096]⟩ : Shape).Idx → EReal)
    (b : Fin 8192) (o : Fin 4096) : ∃ A : ℝ, ∑ k ∈ Finset.range 4096, signProd x w b o k = (A : EReal) := by
  refine exists_real_sum _ _ fun k _ => ?_
  unfold signProd
  by_cases h : k < 4096
  · obtain ⟨r, hr⟩ := sign_real (x (ValueIdx.ix2 b ⟨k, h⟩))
    obtain ⟨t, ht⟩ := sign_real (w (ValueIdx.ix2 o ⟨k, h⟩))
    exact ⟨r * t, by rw [dif_pos h, hr, ht, EReal.coe_mul]⟩
  · exact ⟨0, by rw [dif_neg h]; rfl⟩

/-- The two programs' results at one entry, over the binarized dot product of the entry's rows: equal when the
    channel's statistics are real, its variance nonnegative and `ε` positive. -/
theorem entry_eq (x : (⟨2, ![8192, 4096]⟩ : Shape).Idx → EReal) (w : (⟨2, ![4096, 4096]⟩ : Shape).Idx → EReal)
    (b : Fin 8192) (o : Fin 4096) (γ β μ v e : ℝ) (hv : 0 ≤ v) (he : 0 < e) :
    (∑ k ∈ Finset.range 4096, signProd x w b o k) * Ideal.div (γ : EReal) (Ideal.sqrt ((v : EReal) + (e : EReal)))
        + ((β : EReal) - (μ : EReal) * Ideal.div (γ : EReal) (Ideal.sqrt ((v : EReal) + (e : EReal))))
      = Ideal.div ((∑ k ∈ Finset.range 4096, signProd x w b o k) - (μ : EReal)) (Ideal.sqrt ((v : EReal) + (e : EReal)))
          * (γ : EReal) + (β : EReal) := by
  obtain ⟨A, hA⟩ := dot_real x w b o
  rw [hA]
  exact folded_eq_unfolded A μ γ β v e hv he

end Cert.BinBn

end
-- ==== Proof.PreFacts.lean ====
/-
  What the precondition says of the four per-channel statistics: at every channel the scale, the shift, the
  running mean and the running variance are real numbers, and the variance is not negative. Also: the
  stabiliser added to the variance is a positive real.
-/
import proofs.«108124_j70162585747567_2_alg».proof.Pre_finite_inputs
import Idealize.ShloMosaic.Lib.ReduceAll
import Idealize.ShloMosaic.Lib.ValueIdx
import Idealize.ShloMosaic.PureOps.Ideal.Laws

noncomputable section

namespace Cert.BinBn

open Idealize.ShloMosaic

/-- A one-bit word made from a Boolean is 1 exactly when the Boolean is true. -/
private theorem ha_ofBool_eq_one {b : Bool} : BitVec.ofBool b = 1#1 ↔ b = true := by cases b <;> decide

/-- The f32 pattern with an all-ones exponent and a zero fraction denotes `+∞`. -/
private theorem ha_top : Ideal.ofBits .f32 0x7F800000#32 = (⊤ : EReal) := by
  simp [Ideal.ofBits, Ideal.ieee]

/-- An extended real whose absolute value `max a (-a)` is strictly below `+∞` is a real number:
    `⊥` has absolute value `⊤`, and so has `⊤`. -/
private theorem ha_real_of_lt (a : Ideal .f32)
    (h : FloatOps.cmpf .olt (FloatOps.hostAbsf a) (FloatOps.ofBits .f32 0x7F800000#32 : Ideal .f32) = 1#1) :
    ∃ r : ℝ, a = (r : EReal) := by
  simp only [Ideal.cmpf_def, Ideal.hostAbsf_def, Ideal.absf_def, Ideal.ofBits_def, ha_top, Ideal.cmp] at h
  induction a using EReal.rec with
  | bot => simp at h
  | coe r => exact ⟨r, rfl⟩
  | top => simp at h

/-- An extended real that compares `≥` against the zero pattern is not negative. -/
private theorem ha_nonneg_of_ge (a : Ideal .f32)
    (h : FloatOps.cmpf .oge a (FloatOps.ofBits .f32 0x00000000#32 : Ideal .f32) = 1#1) :
    (0 : EReal) ≤ a := by
  simp only [Ideal.cmpf_def, Ideal.ofBits_def, Ideal.ofBits_zero_f32, Ideal.cmp, ha_ofBool_eq_one,
    decide_eq_true_eq] at h
  exact h

/-- The rank-0 shape has exactly one index. -/
private instance ha_sub : Subsingleton Cert.Pre_finite_inputs.S_.Idx := ⟨fun _ _ => funext fun d => d.elim0⟩

/-- The precondition, as printed, at one channel `o`: the four statistics are reals and the variance is `≥ 0`. -/
theorem stats_real [Cert.Pre_finite_inputs.Facts]
    (x0 : FVec Ideal Cert.Pre_finite_inputs.S8192x4096 .f32) (x1 : FVec Ideal Cert.Pre_finite_inputs.S4096x4096 .f32)
    (x2 x3 x4 x5 : FVec Ideal Cert.Pre_finite_inputs.S4096 .f32)
    (h : Cert.Pre_finite_inputs.fn (F := Ideal) x0 x1 x2 x3 x4 x5 = fun _ => 1#1) (o : Fin 4096) :
    ∃ g b u v : ℝ, x2 (ValueIdx.ix1 o) = (g : EReal) ∧ x3 (ValueIdx.ix1 o) = (b : EReal)
      ∧ x4 (ValueIdx.ix1 o) = (u : EReal) ∧ x5 (ValueIdx.ix1 o) = (v : EReal) ∧ 0 ≤ v := by
  -- the conjunction of the seven reductions is 1 at the one index of the rank-0 result: each reduction is 1
  have e := congrFun h (fun d => d.elim0)
  simp only [Cert.Pre_finite_inputs.fn, Cert.Pre_finite_inputs.fn_part1, andi, IntOp.andi_eq_one] at e
  obtain ⟨⟨⟨⟨⟨⟨-, -⟩, h2⟩, h3⟩, h4⟩, h5⟩, h5'⟩ := e
  -- a reduction by `and` over every axis that is 1 met a 1 at every element, so at channel `o`
  have k2 := Host.reduce_andi_all _ _ _ _ _ h2 (ValueIdx.ix1 o)
  have k3 := Host.reduce_andi_all _ _ _ _ _ h3 (ValueIdx.ix1 o)
  have k4 := Host.reduce_andi_all _ _ _ _ _ h4 (ValueIdx.ix1 o)
  have k5 := Host.reduce_andi_all _ _ _ _ _ h5 (ValueIdx.ix1 o)
  have k5' := Host.reduce_andi_all _ _ _ _ _ h5' (ValueIdx.ix1 o)
  -- each element's comparison, read at the extended reals
  obtain ⟨g, hg⟩ := ha_real_of_lt (x2 (ValueIdx.ix1 o)) k2
  obtain ⟨b, hb⟩ := ha_real_of_lt (x3 (ValueIdx.ix1 o)) k3
  obtain ⟨u, hu⟩ := ha_real_of_lt (x4 (ValueIdx.ix1 o)) k4
  obtain ⟨v, hv⟩ := ha_real_of_lt (x5 (ValueIdx.ix1 o)) k5
  have hv0 : (0 : EReal) ≤ x5 (ValueIdx.ix1 o) := ha_nonneg_of_ge (x5 (ValueIdx.ix1 o)) k5'
  rw [hv] at hv0
  exact ⟨g, b, u, v, hg, hb, hu, hv, EReal.coe_nonneg.1 hv0⟩

/-- The stabiliser's pattern denotes a positive real. -/
theorem eps_pos : ∃ e : ℝ, 0 < e ∧ Ideal.ofBits .f32 0x3727C5AC#32 = (e : EReal) := by
  simp [Ideal.ofBits, Ideal.ieee, -EReal.coe_mul]

end Cert.BinBn

end
-- ==== Proof.RefAt.lean ====
/-
  The reference's result at one entry (b, o): the binarized dot product of row b of the activations and row o of
  the weights, minus the channel's running mean, divided by the channel's deviation √(variance + ε), times the
  channel's scale, plus the channel's shift. Read off the reference's operations one at a time: the sign maps
  are pointwise, the product of the two sign arrays contracts their second axes, and each per-channel vector
  is broadcast along the rows, so at (b, o) it is read at o.
-/
import proofs.«108124_j70162585747567_2_alg».proof.Proof.Gen.ReferenceIdeal.Read
import proofs.«108124_j70162585747567_2_alg».proof.Proof.BnAlgebra

noncomputable section

namespace Cert.BinBn

open Idealize.ShloMosaic Cert.ReferenceIdeal Cert.ReferenceIdeal.Read

/-- The reference at entry (b, o). -/
theorem ref_at (x0 : FVec Ideal S8192x4096 .f32) (x1 : FVec Ideal S4096x4096 .f32) (x2 x3 x4 x5 : FVec Ideal S4096 .f32)
    (b : Fin 8192) (o : Fin 4096) :
    val_main_v17 (F := Ideal) x0 x1 x2 x3 x4 x5 (ValueIdx.ix2 b o)
      = Ideal.div ((∑ k ∈ Finset.range 4096, signProd x0 x1 b o k) - x4 (ValueIdx.ix1 o))
            (Ideal.sqrt (x5 (ValueIdx.ix1 o) + Ideal.ofBits .f32 0x3727C5AC#32))
          * x2 (ValueIdx.ix1 o) + x3 (ValueIdx.ix1 o) := by
  have e1 : idx_main_v6 (idx_main_v7 (ValueIdx.ix2 b o)) = ValueIdx.ix1 o :=
    funext fun a => Fin.ext (by match a with | ⟨0, _⟩ => rfl)
  have e2 : idx_main_v9 (idx_main_v10 (ValueIdx.ix2 b o)) = ValueIdx.ix1 o :=
    funext fun a => Fin.ext (by match a with | ⟨0, _⟩ => rfl)
  have e3 : idx_main_v12 (idx_main_v13 (ValueIdx.ix2 b o)) = ValueIdx.ix1 o :=
    funext fun a => Fin.ext (by match a with | ⟨0, _⟩ => rfl)
  have e4 : idx_main_v15 (idx_main_v16 (ValueIdx.ix2 b o)) = ValueIdx.ix1 o :=
    funext fun a => Fin.ext (by match a with | ⟨0, _⟩ => rfl)
  have el : ∀ k : Fin 4096, lidx_main_v2 (ValueIdx.ix2 b o) k = ValueIdx.ix2 b ⟨k.val, k.isLt⟩ := fun k =>
    funext fun a => Fin.ext (by match a with | ⟨0, _⟩ => rfl | ⟨1, _⟩ => rfl)
  have er : ∀ k : Fin 4096, ridx_main_v2 (ValueIdx.ix2 b o) k = ValueIdx.ix2 o ⟨k.val, k.isLt⟩ := fun k =>
    funext fun a => Fin.ext (by match a with | ⟨0, _⟩ => rfl | ⟨1, _⟩ => rfl)
  have hdot : (∑ k : Fin 4096, val_main_v0 (F := Ideal) x0 (lidx_main_v2 (ValueIdx.ix2 b o) k)
        * val_main_v1 (F := Ideal) x1 (ridx_main_v2 (ValueIdx.ix2 b o) k))
      = ∑ k ∈ Finset.range 4096, signProd x0 x1 b o k := by
    rw [Finset.sum_range]
    refine Finset.sum_congr rfl fun k _ => ?_
    unfold signProd
    rw [dif_pos k.isLt, val_main_v0_apply, val_main_v1_apply, el, er]
    rfl
  rw [val_main_v17_apply, val_main_v14_apply, val_main_v11_apply, val_main_v8_apply, val_main_v2_apply, hdot,
    val_main_v7_apply, val_main_v6_apply, val_main_v10_apply, val_main_v9_apply, val_main_v5_apply, val_main_v4_apply,
    val_main_v3_apply, val_main_cst_apply, val_main_v13_apply, val_main_v12_apply, val_main_v16_apply, val_main_v15_apply]
  rw [e1, e2, e3, e4]
  rfl

end Cert.BinBn

end
-- ==== Proof.Blocks.lean ====
/-
  Where the kernel's blocks sit. The grid is 4 × 2 × 32: point t = 64·i + 32·j + k works on rows
  2048·i … 2048·i + 2047 of the activations and rows 2048·j … of the weights, columns 128·k … 128·k + 127 of both,
  and on channels 2048·j … of the scale and shift rows. So a block entry is an entry of the launch array at
  block index × block size + the entry's place in the block, and the block indices are i = t / 64,
  j = t / 32 mod 2, k = t mod 32.
-/
import proofs.«108124_j70162585747567_2_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

namespace Cert.BinBn

open Cert.KernelIdeal Cert.KernelIdeal.Gen Idealize.ShloMosaic Idealize.ShloMosaic.TcCoe Idealize.SL.Sem

variable (m : (ℓ : Loc nD τ sig) → Buf (Elt Ideal) ℓ)

/-- The six argument arrays on core `c` at launch, as functions of an index into the extended reals:
    activations, weights, and the per-channel scale γ, shift β, running mean and running variance. -/
abbrev act (c : Dev nD) : (⟨2, ![8192, 4096]⟩ : Shape).Idx → EReal := m ((c : Thread nD τ).loc main_arg0)
abbrev wt (c : Dev nD) : (⟨2, ![4096, 4096]⟩ : Shape).Idx → EReal := m ((c : Thread nD τ).loc main_arg1)
abbrev gam (c : Dev nD) : (⟨1, ![4096]⟩ : Shape).Idx → EReal := m ((c : Thread nD τ).loc main_arg2)
abbrev bet (c : Dev nD) : (⟨1, ![4096]⟩ : Shape).Idx → EReal := m ((c : Thread nD τ).loc main_arg3)
abbrev mu (c : Dev nD) : (⟨1, ![4096]⟩ : Shape).Idx → EReal := m ((c : Thread nD τ).loc main_arg4)
abbrev var (c : Dev nD) : (⟨1, ![4096]⟩ : Shape).Idx → EReal := m ((c : Thread nD τ).loc main_arg5)

/-- The block indices of the four input windows at every grid point, decided over the grid. -/
theorem block_indices : ∀ t : Fin cfg0.N,
    win0_0.index t (0 : Fin 2) = t.val / 64 ∧ win0_0.index t (1 : Fin 2) = t.val % 32
    ∧ win0_1.index t (0 : Fin 2) = t.val / 32 % 2 ∧ win0_1.index t (1 : Fin 2) = t.val % 32
    ∧ win0_2.index t (0 : Fin 2) = 0 ∧ win0_2.index t (1 : Fin 2) = t.val / 32 % 2
    ∧ win0_3.index t (0 : Fin 2) = 0 ∧ win0_3.index t (1 : Fin 2) = t.val / 32 % 2 :=
  (by decide +kernel : ∀ t : Fin grid0.N, _)

/-- Entry (p, l) of the activation block at point t is the launch array's entry (2048·(t/64) + p, 128·(t mod 32) + l). -/
theorem act_block_at (c : Dev nD) (t : Fin cfg0.N) (p : Fin 2048) (l : Fin 128)
    (hr : 2048 * (t.val / 64) + p.val < 8192) (hc : 128 * (t.val % 32) + l.val < 4096) :
    iblk m c 0 t (ValueIdx.ix2 p l)
      = act m c (ValueIdx.ix2 ⟨2048 * (t.val / 64) + p.val, hr⟩ ⟨128 * (t.val % 32) + l.val, hc⟩) := by
  unfold iblk
  show V m c main_arg0 (((cfg0.win 0).blk t).view.emb (ValueIdx.ix2 p l)) = _
  rw [V_main_arg0]
  obtain ⟨e0, e1, -⟩ := block_indices t
  refine congrArg _ (funext fun a => Fin.ext ?_)
  match a with
  | ⟨0, _⟩ => show win0_0.index t (0 : Fin 2) * 2048 + 1 * p.val = 2048 * (t.val / 64) + p.val; rw [e0]; omega
  | ⟨1, _⟩ => show win0_0.index t (1 : Fin 2) * 128 + 1 * l.val = 128 * (t.val % 32) + l.val; rw [e1]; omega

/-- Entry (q, l) of the weight block at point t is the launch array's entry (2048·(t/32 mod 2) + q, 128·(t mod 32) + l). -/
theorem wt_block_at (c : Dev nD) (t : Fin cfg0.N) (q : Fin 2048) (l : Fin 128)
    (hr : 2048 * (t.val / 32 % 2) + q.val < 4096) (hc : 128 * (t.val % 32) + l.val < 4096) :
    iblk m c 1 t (ValueIdx.ix2 q l)
      = wt m c (ValueIdx.ix2 ⟨2048 * (t.val / 32 % 2) + q.val, hr⟩ ⟨128 * (t.val % 32) + l.val, hc⟩) := by
  unfold iblk
  show V m c main_arg1 (((cfg0.win 1).blk t).view.emb (ValueIdx.ix2 q l)) = _
  rw [V_main_arg1]
  obtain ⟨-, -, e0, e1, -⟩ := block_indices t
  refine congrArg _ (funext fun a => Fin.ext ?_)
  match a with
  | ⟨0, _⟩ => show win0_1.index t (0 : Fin 2) * 2048 + 1 * q.val = 2048 * (t.val / 32 % 2) + q.val; rw [e0]; omega
  | ⟨1, _⟩ => show win0_1.index t (1 : Fin 2) * 128 + 1 * l.val = 128 * (t.val % 32) + l.val; rw [e1]; omega

/-- The scale row as the region finds it: γ / √(variance + ε), channel by channel, laid out as one row. -/
theorem scale_row (c : Dev nD) :
    (V m c main_v4 : S1x4096.Idx → EReal)
      = shapeCast S1x4096 (Host.divf (F := Ideal) (m ((c : Thread nD τ).loc main_arg2))
          (Host.sqrt (F := Ideal) (addf (m ((c : Thread nD τ).loc main_arg5))
            (broadcastInDim S4096 ![] bcast_S_S4096 (constant (F := Ideal) S_ .f32 0x3727C5AC#32)))))
          shapeCasts_S4096_S1x4096 := by
  dsimp only [Gen.V, Gen.hostOps0]
  after_results
  rfl

/-- The shift row as the region finds it: β − mean · (γ / √(variance + ε)), channel by channel, as one row. -/
theorem shift_row (c : Dev nD) :
    (V m c main_v8 : S1x4096.Idx → EReal)
      = shapeCast S1x4096 (subf (m ((c : Thread nD τ).loc main_arg3)) (mulf (m ((c : Thread nD τ).loc main_arg4))
          (Host.divf (F := Ideal) (m ((c : Thread nD τ).loc main_arg2))
            (Host.sqrt (F := Ideal) (addf (m ((c : Thread nD τ).loc main_arg5))
              (broadcastInDim S4096 ![] bcast_S_S4096 (constant (F := Ideal) S_ .f32 0x3727C5AC#32)))))))
          shapeCasts_S4096_S1x4096 := by
  dsimp only [Gen.V, Gen.hostOps0]
  after_results
  rfl

/-- Column q of the scale block at point t is the scale of channel 2048·(t/32 mod 2) + q. -/
theorem scale_block_at (c : Dev nD) (t : Fin cfg0.N) (q : Fin 2048) (ho : 2048 * (t.val / 32 % 2) + q.val < 4096) :
    iblk m c 2 t (ValueIdx.ix2 (0 : Fin 1) q)
      = Ideal.div (gam m c (ValueIdx.ix1 ⟨2048 * (t.val / 32 % 2) + q.val, ho⟩))
          (Ideal.sqrt (var m c (ValueIdx.ix1 ⟨2048 * (t.val / 32 % 2) + q.val, ho⟩)
            + Ideal.ofBits .f32 0x3727C5AC#32)) := by
  unfold iblk
  show V m c main_v4 (((cfg0.win 2).blk t).view.emb (ValueIdx.ix2 (0 : Fin 1) q)) = _
  obtain ⟨-, -, -, -, e0, e1, -⟩ := block_indices t
  have hidx : ((cfg0.win 2).blk t).view.emb (ValueIdx.ix2 (0 : Fin 1) q)
      = ValueIdx.ix2 (0 : Fin 1) (⟨2048 * (t.val / 32 % 2) + q.val, ho⟩ : Fin 4096) := by
    refine funext fun a => Fin.ext ?_
    match a with
    | ⟨0, _⟩ => show win0_2.index t (0 : Fin 2) * 1 + 1 * 0 = 0; rw [e0]
    | ⟨1, _⟩ => show win0_2.index t (1 : Fin 2) * 2048 + 1 * q.val = 2048 * (t.val / 32 % 2) + q.val; rw [e1]; omega
  rw [hidx, scale_row, ValueIdx.shapeCast_a_1a_apply]
  rfl

/-- Column q of the shift block at point t is the shift of channel 2048·(t/32 mod 2) + q. -/
theorem shift_block_at (c : Dev nD) (t : Fin cfg0.N) (q : Fin 2048) (ho : 2048 * (t.val / 32 % 2) + q.val < 4096) :
    iblk m c 3 t (ValueIdx.ix2 (0 : Fin 1) q)
      = bet m c (ValueIdx.ix1 ⟨2048 * (t.val / 32 % 2) + q.val, ho⟩)
          - mu m c (ValueIdx.ix1 ⟨2048 * (t.val / 32 % 2) + q.val, ho⟩)
            * Ideal.div (gam m c (ValueIdx.ix1 ⟨2048 * (t.val / 32 % 2) + q.val, ho⟩))
                (Ideal.sqrt (var m c (ValueIdx.ix1 ⟨2048 * (t.val / 32 % 2) + q.val, ho⟩)
                  + Ideal.ofBits .f32 0x3727C5AC#32)) := by
  unfold iblk
  show V m c main_v8 (((cfg0.win 3).blk t).view.emb (ValueIdx.ix2 (0 : Fin 1) q)) = _
  obtain ⟨-, -, -, -, -, -, e0, e1⟩ := block_indices t
  have hidx : ((cfg0.win 3).blk t).view.emb (ValueIdx.ix2 (0 : Fin 1) q)
      = ValueIdx.ix2 (0 : Fin 1) (⟨2048 * (t.val / 32 % 2) + q.val, ho⟩ : Fin 4096) := by
    refine funext fun a => Fin.ext ?_
    match a with
    | ⟨0, _⟩ => show win0_3.index t (0 : Fin 2) * 1 + 1 * 0 = 0; rw [e0]
    | ⟨1, _⟩ => show win0_3.index t (1 : Fin 2) * 2048 + 1 * q.val = 2048 * (t.val / 32 % 2) + q.val; rw [e1]; omega
  rw [hidx, shift_row, ValueIdx.shapeCast_a_1a_apply]
  rfl

end Cert.BinBn

end
-- ==== Proof.Payloads.lean ====
/-
  The kernel body's three stored values, read at one entry (p, q) of the 2048 × 2048 output block, on the
  extended reals: the cleared accumulator is 0; one accumulation step adds to the entry the 128 products of the
  signs of row p of the activation block and row q of the weight block; the last step multiplies the entry by the
  channel's scale and adds the channel's shift.
-/
import proofs.«108124_j70162585747567_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.BinBn

open Idealize.ShloMosaic Cert.KernelIdeal Cert.KernelIdeal.Gen

/-- Axis 0 of the left operand's index is the output row. -/
private theorem hb_lhs_0 (i : S2048x2048.Idx) (k : dot_S2048x128_S2048x128_S2048x2048_1_1_0_0_n_n.contr.Idx) :
    (dot_S2048x128_S2048x128_S2048x2048_1_1_0_0_n_n.lhsIdx i k 0).val = (i 0).val := by
  unfold DotDims.lhsIdx
  rw [dif_neg (show ¬(0 : Fin S2048x128.rank) ∈ dot_S2048x128_S2048x128_S2048x2048_1_1_0_0_n_n.lhsBatch by decide), dif_pos (show (0 : Fin S2048x128.rank) ∈ dot_S2048x128_S2048x128_S2048x2048_1_1_0_0_n_n.lhsNonContracting by decide)]
  rfl
/-- Axis 1 of the left operand's index is the contraction position. -/
private theorem hb_lhs_1 (i : S2048x2048.Idx) (k : dot_S2048x128_S2048x128_S2048x2048_1_1_0_0_n_n.contr.Idx) :
    (dot_S2048x128_S2048x128_S2048x2048_1_1_0_0_n_n.lhsIdx i k 1).val = (k ⟨0, by decide⟩).val :=
  dot_S2048x128_S2048x128_S2048x2048_1_1_0_0_n_n.lhsIdx_val_of_single rfl i k
/-- Axis 0 of the right operand's index is the output column. -/
private theorem hb_rhs_0 (i : S2048x2048.Idx) (k : dot_S2048x128_S2048x128_S2048x2048_1_1_0_0_n_n.contr.Idx) :
    (dot_S2048x128_S2048x128_S2048x2048_1_1_0_0_n_n.rhsIdx i k 0).val = (i 1).val := by
  unfold DotDims.rhsIdx
  rw [dif_neg (show ¬(0 : Fin S2048x128.rank) ∈ dot_S2048x128_S2048x128_S2048x2048_1_1_0_0_n_n.rhsBatch by decide), dif_pos (show (0 : Fin S2048x128.rank) ∈ dot_S2048x128_S2048x128_S2048x2048_1_1_0_0_n_n.rhsNonContracting by decide)]
  rfl
/-- Axis 1 of the right operand's index is the contraction position. -/
private theorem hb_rhs_1 (i : S2048x2048.Idx) (k : dot_S2048x128_S2048x128_S2048x2048_1_1_0_0_n_n.contr.Idx) :
    (dot_S2048x128_S2048x128_S2048x2048_1_1_0_0_n_n.rhsIdx i k 1).val = (k ⟨0, by decide⟩).val :=
  dot_S2048x128_S2048x128_S2048x2048_1_1_0_0_n_n.rhsIdx_val_of_single rfl i k

/-- The matrix product into a zero accumulator, at entry (p, q): the 128 products of row p of the left operand and
    row q of the right operand. -/
private theorem hb_matmul_at (y0 y1 : FVec Ideal S2048x128 .bf16) (p q : Fin 2048) :
    matmul dot_S2048x128_S2048x128_S2048x2048_1_1_0_0_n_n none y0 y1 (constant S2048x2048 .f32 0x00000000#32) (ValueIdx.ix2 p q)
      = ∑ l : Fin 128, y0 (ValueIdx.ix2 p l) * y1 (ValueIdx.ix2 q l) := by
  simp only [matmul]
  rw [Ideal.matmul_constant_zero_apply, ← Equiv.sum_comp (ValueIdx.contrEquiv1 dot_S2048x128_S2048x128_S2048x2048_1_1_0_0_n_n 128 rfl rfl).symm]
  refine Finset.sum_congr rfl fun k _ => ?_
  have hk := ValueIdx.contrEquiv1_symm_val dot_S2048x128_S2048x128_S2048x2048_1_1_0_0_n_n 128 rfl rfl k
  have el : dot_S2048x128_S2048x128_S2048x2048_1_1_0_0_n_n.lhsIdx (ValueIdx.ix2 p q) ((ValueIdx.contrEquiv1 dot_S2048x128_S2048x128_S2048x2048_1_1_0_0_n_n 128 rfl rfl).symm k) = ValueIdx.ix2 p k := funext fun a => Fin.ext (by
    match a with
    | ⟨0, _⟩ => exact hb_lhs_0 _ _
    | ⟨1, _⟩ => exact (hb_lhs_1 _ _).trans hk)
  have er : dot_S2048x128_S2048x128_S2048x2048_1_1_0_0_n_n.rhsIdx (ValueIdx.ix2 p q) ((ValueIdx.contrEquiv1 dot_S2048x128_S2048x128_S2048x2048_1_1_0_0_n_n 128 rfl rfl).symm k) = ValueIdx.ix2 q k := funext fun a => Fin.ext (by
    match a with
    | ⟨0, _⟩ => exact hb_rhs_0 _ _
    | ⟨1, _⟩ => exact (hb_rhs_1 _ _).trans hk)
  rw [el, er]

/-- The cleared accumulator holds 0 at every entry. -/
theorem cleared_at (p q : Fin 2048) : k0_pay1 (F := Ideal) (ValueIdx.ix2 p q) = 0 := by
  show Ideal.ofBits .f32 0x00000000#32 = 0
  exact Ideal.ofBits_zero_f32

/-- One accumulation step at entry (p, q): the entry plus the 128 sign products of row p and row q. -/
theorem step_at (x0 x1 : Vec Ideal S2048x128 .f32) (acc : Vec Ideal S2048x2048 .f32) (p q : Fin 2048) :
    k0_pay2 (F := Ideal) x0 x1 acc (ValueIdx.ix2 p q)
      = acc (ValueIdx.ix2 p q) + ∑ l : Fin 128, Ideal.sign (x0 (ValueIdx.ix2 p l)) * Ideal.sign (x1 (ValueIdx.ix2 q l)) := by
  unfold k0_pay2
  refine (ValueIdx.addf_apply _ _ _).trans ?_
  rw [shapeCast_self]
  refine congrArg (fun t => acc (ValueIdx.ix2 p q) + t) ?_
  refine (hb_matmul_at _ _ p q).trans ?_
  refine Finset.sum_congr rfl fun l _ => ?_
  exact congrArg₂ (fun s t : EReal => s * t) (Ideal.jnp_sign_eq_sign_f32 (x0 (ValueIdx.ix2 p l)))
    (Ideal.jnp_sign_eq_sign_f32 (x1 (ValueIdx.ix2 q l)))

/-- The final affine step at entry (p, q): the entry times column q of the scale row plus column q of the shift row. -/
theorem affine_at (a : Vec Ideal S2048x2048 .f32) (x2 x3 : Vec Ideal S1x2048 .f32) (p q : Fin 2048) :
    k0_pay3 (F := Ideal) a x2 x3 (ValueIdx.ix2 p q)
      = a (ValueIdx.ix2 p q) * x2 (ValueIdx.ix2 (0 : Fin 1) q) + x3 (ValueIdx.ix2 (0 : Fin 1) q) := by
  unfold k0_pay3
  show shapeCast S2048x2048 a shapeCasts_S2048x2048_S2048x2048 (ValueIdx.ix2 p q)
        * broadcastTo S2048x2048 (shapeCast S1x2048 x2 shapeCasts_S1x2048_S1x2048) broadcasts_S1x2048_S2048x2048 (ValueIdx.ix2 p q)
      + broadcastTo S2048x2048 (shapeCast S1x2048 x3 shapeCasts_S1x2048_S1x2048) broadcasts_S1x2048_S2048x2048 (ValueIdx.ix2 p q) = _
  rw [shapeCast_self, shapeCast_self, shapeCast_self, ValueIdx.broadcastTo_1b_ab_apply, ValueIdx.broadcastTo_1b_ab_apply]

end Cert.BinBn

end
-- ==== Proof.KernelAt.lean ====
/-
  The kernel's result at one entry (b, o). The 32 grid points of a run share an output block; the first clears
  it and adds its 128 sign products, each later one adds its own 128, and the last also applies the channel's
  scale and shift. So the block's entry (p, q) ends as (sum over the 32 points of the 128 products) · scale + shift,
  and the 32 groups of 128 consecutive positions are the 4096 positions of the rows: the binarized dot product
  of row b = 2048·(R/2) + p of the activations and row o = 2048·(R mod 2) + q of the weights, R the run's number.
-/
import proofs.«108124_j70162585747567_2_alg».proof.Proof.Gen.KernelIdeal.Value
import proofs.«108124_j70162585747567_2_alg».proof.Proof.BnAlgebra
import proofs.«108124_j70162585747567_2_alg».proof.Proof.Blocks
import proofs.«108124_j70162585747567_2_alg».proof.Proof.Payloads

noncomputable section

namespace Cert.BinBn

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The activation row and the weight row (= channel) that entry (p, q) of run R's output block belongs to. -/
def rowOf (R : ℕ) (hR : R < 8) (p : Fin 2048) : Fin 8192 := ⟨2048 * (R / 2) + p.val, by omega⟩
def chanOf (R : ℕ) (q : Fin 2048) : Fin 4096 := ⟨2048 * (R % 2) + q.val, by omega⟩

/-- What grid point n adds to entry y of run R's output block: the 128 sign products at positions
    128·(n mod 32) … 128·(n mod 32) + 127 of the entry's two rows. -/
def addend (c : Dev nD) (R : ℕ) (hR : R < 8) (n : ℕ) : S2048x2048.Idx → EReal := fun y =>
  ∑ l ∈ Finset.range 128, signProd (act m c) (wt m c) (rowOf R hR (y 0)) (chanOf R (y 1)) (128 * (n % 32) + l)

/-- The 128 sign products of the two input blocks at a point n of run R are that point's addend. -/
theorem block_dot (c : Dev nD) (R : ℕ) (hR : R < 8) (n : ℕ) (h : n < cfg0.N) (hn : n / 32 = R) (p q : Fin 2048) :
    (∑ l : Fin 128, Ideal.sign (iblk m c 0 ⟨n, h⟩ (ValueIdx.ix2 p l)) * Ideal.sign (iblk m c 1 ⟨n, h⟩ (ValueIdx.ix2 q l)))
      = addend m c R hR n (ValueIdx.ix2 p q) := by
  have hN : n < 256 := lt_of_lt_of_eq h N_0
  unfold addend
  rw [Finset.sum_range]
  refine Finset.sum_congr rfl fun l _ => ?_
  have hl : l.val < 128 := l.isLt
  have hp : p.val < 2048 := p.isLt
  have hq : q.val < 2048 := q.isLt
  have hc : 128 * (n % 32) + l.val < 4096 := by omega
  rw [act_block_at m c ⟨n, h⟩ p l (by show 2048 * (n / 64) + p.val < 8192; omega) hc,
    wt_block_at m c ⟨n, h⟩ q l (by show 2048 * (n / 32 % 2) + q.val < 4096; omega) hc]
  unfold signProd
  rw [dif_pos hc]
  have hrow : (⟨2048 * (n / 64) + p.val, by omega⟩ : Fin 8192) = rowOf R hR p := Fin.ext (by
    show 2048 * (n / 64) + p.val = 2048 * (R / 2) + p.val; omega)
  have hch : (⟨2048 * (n / 32 % 2) + q.val, by omega⟩ : Fin 4096) = chanOf R q := Fin.ext (by
    show 2048 * (n / 32 % 2) + q.val = 2048 * (R % 2) + q.val; omega)
  show Ideal.sign (act m c (ValueIdx.ix2 ⟨2048 * (n / 64) + p.val, _⟩ ⟨128 * (n % 32) + l.val, hc⟩))
      * Ideal.sign (wt m c (ValueIdx.ix2 ⟨2048 * (n / 32 % 2) + q.val, _⟩ ⟨128 * (n % 32) + l.val, hc⟩)) = _
  rw [hrow, hch]

/-- THE FOLD of run R at entry (p, q): the binarized dot product of the entry's rows, times the channel's scale,
    plus the channel's shift. -/
theorem fold_at (c : Dev nD) (R : ℕ) (hR : R < 8) (h : 32 * R + 31 < cfg0.N) (p q : Fin 2048) :
    Pipeline.accAt (reset4 m c) (step4 m c) (32 * R) 31 h (ValueIdx.ix2 p q)
      = (∑ k ∈ Finset.range 4096, signProd (act m c) (wt m c) (rowOf R hR p) (chanOf R q) k)
          * Ideal.div (gam m c (ValueIdx.ix1 (chanOf R q)))
              (Ideal.sqrt (var m c (ValueIdx.ix1 (chanOf R q)) + Ideal.ofBits .f32 0x3727C5AC#32))
        + (bet m c (ValueIdx.ix1 (chanOf R q)) - mu m c (ValueIdx.ix1 (chanOf R q))
            * Ideal.div (gam m c (ValueIdx.ix1 (chanOf R q)))
                (Ideal.sqrt (var m c (ValueIdx.ix1 (chanOf R q)) + Ideal.ofBits .f32 0x3727C5AC#32))) := by
  have hN : cfg0.N = 256 := N_0
  -- the first 31 points: the cleared block plus each point's addend
  have ha : ∀ (h0 : 32 * R < cfg0.N) (y : S2048x2048.Idx),
      reset4 m c (32 * R) h0 y = (fun _ => (0 : EReal)) y + addend m c R hR (32 * R) y := by
    intro h0 y
    obtain ⟨p', q', rfl⟩ : ∃ (p' q' : Fin 2048), y = ValueIdx.ix2 p' q' := ⟨y 0, y 1, ValueIdx.eq_ix2 y⟩
    unfold reset4
    rw [step_at, cleared_at, block_dot m c R hR (32 * R) h0 (by omega) p' q']
  have hg : ∀ (n : ℕ) (hn : n < cfg0.N) (acc : S2048x2048.Idx → EReal) (y : S2048x2048.Idx),
      32 * R < n → n ≤ 32 * R + 30 → step4 m c n hn acc y = acc y + addend m c R hR n y := by
    intro n hn acc y h1 h2
    obtain ⟨p', q', rfl⟩ : ∃ (p' q' : Fin 2048), y = ValueIdx.ix2 p' q' := ⟨y 0, y 1, ValueIdx.eq_ix2 y⟩
    unfold step4
    rw [if_pos (by omega), step_at, block_dot m c R hR n hn (by omega) p' q']
  have h30 := Pipeline.accAt_add_apply (reset4 m c) (step4 m c) (fun _ => (0 : EReal)) (addend m c R hR) (32 * R) 30 ha hg
    30 le_rfl (Nat.lt_of_succ_lt h) (ValueIdx.ix2 p q)
  -- the last point adds its products and applies the scale and the shift
  have hlast : ∀ acc : S2048x2048.Idx → EReal, step4 m c (32 * R + (30 + 1)) h acc
      = k0_pay3 (k0_pay2 (iblk m c 0 ⟨32 * R + (30 + 1), h⟩) (iblk m c 1 ⟨32 * R + (30 + 1), h⟩) acc)
          (iblk m c 2 ⟨32 * R + (30 + 1), h⟩) (iblk m c 3 ⟨32 * R + (30 + 1), h⟩) := by
    intro acc
    unfold step4
    rw [if_neg (by omega), if_pos (by omega)]
  rw [Pipeline.accAt_succ, hlast, affine_at, step_at, h30,
    block_dot m c R hR (32 * R + (30 + 1)) h (by omega) p q,
    scale_block_at m c ⟨32 * R + (30 + 1), h⟩ q (by show 2048 * ((32 * R + (30 + 1)) / 32 % 2) + q.val < 4096; have := q.isLt; omega),
    shift_block_at m c ⟨32 * R + (30 + 1), h⟩ q (by show 2048 * ((32 * R + (30 + 1)) / 32 % 2) + q.val < 4096; have := q.isLt; omega)]
  -- the channel, and the 32 groups of 128 positions
  have hch : (⟨2048 * ((32 * R + (30 + 1)) / 32 % 2) + q.val, by have := q.isLt; omega⟩ : Fin 4096) = chanOf R q := Fin.ext (by
    show 2048 * ((32 * R + (30 + 1)) / 32 % 2) + q.val = 2048 * (R % 2) + q.val; omega)
  have hsum : (fun _ => (0 : EReal)) (ValueIdx.ix2 p q) + ∑ s ∈ Finset.range (30 + 1), addend m c R hR (32 * R + s) (ValueIdx.ix2 p q)
        + addend m c R hR (32 * R + (30 + 1)) (ValueIdx.ix2 p q)
      = ∑ k ∈ Finset.range 4096, signProd (act m c) (wt m c) (rowOf R hR p) (chanOf R q) k := by
    rw [zero_add, ← Finset.sum_range_succ (fun s => addend m c R hR (32 * R + s) (ValueIdx.ix2 p q)) (30 + 1),
      show (4096 : ℕ) = 128 * 32 from rfl, sum_groups]
    refine Finset.sum_congr rfl fun s hs => ?_
    have hs' : s < 32 := Finset.mem_range.mp hs
    unfold addend
    rw [show (32 * R + s) % 32 = s by omega]
  show (_ + _ + _) * _ + _ = _
  rw [hsum]
  simp only [hch]

/-- THE KERNEL at entry (b, o). -/
theorem kernel_at (c : Dev nD) (b : Fin 8192) (o : Fin 4096) :
    G4 m c (ValueIdx.ix2 b o)
      = (∑ k ∈ Finset.range 4096, signProd (act m c) (wt m c) b o k)
          * Ideal.div (gam m c (ValueIdx.ix1 o)) (Ideal.sqrt (var m c (ValueIdx.ix1 o) + Ideal.ofBits .f32 0x3727C5AC#32))
        + (bet m c (ValueIdx.ix1 o) - mu m c (ValueIdx.ix1 o)
            * Ideal.div (gam m c (ValueIdx.ix1 o)) (Ideal.sqrt (var m c (ValueIdx.ix1 o) + Ideal.ofBits .f32 0x3727C5AC#32))) := by
  have hb : b.val < 8192 := b.isLt
  have ho : o.val < 4096 := o.isLt
  have hN : cfg0.N = 256 := N_0
  have hrun : run4Of (ValueIdx.ix2 b o) = 2 * (b.val / 2048) + o.val / 2048 := by
    show 2 * (b.val / 2048 - 0) + 1 * (o.val / 2048 - 0) = _; omega
  have hR : run4Of (ValueIdx.ix2 b o) < 8 := by rw [hrun]; omega
  have hlt : 32 * run4Of (ValueIdx.ix2 b o) + 31 < cfg0.N := by rw [hN]; omega
  have hloc : loc4Of (ValueIdx.ix2 b o) = ValueIdx.ix2 (⟨b.val % 2048, Nat.mod_lt _ (by decide)⟩ : Fin 2048) (⟨o.val % 2048, Nat.mod_lt _ (by decide)⟩ : Fin 2048) :=
    funext fun a => Fin.ext (by match a with | ⟨0, _⟩ => rfl | ⟨1, _⟩ => rfl)
  have hrow : rowOf (run4Of (ValueIdx.ix2 b o)) hR ⟨b.val % 2048, Nat.mod_lt _ (by decide)⟩ = b := Fin.ext (by
    show 2048 * (run4Of (ValueIdx.ix2 b o) / 2) + b.val % 2048 = b.val; rw [hrun]; omega)
  have hch : chanOf (run4Of (ValueIdx.ix2 b o)) ⟨o.val % 2048, Nat.mod_lt _ (by decide)⟩ = o := Fin.ext (by
    show 2048 * (run4Of (ValueIdx.ix2 b o) % 2) + o.val % 2048 = o.val; rw [hrun]; omega)
  unfold G4
  rw [dif_pos hlt, hloc, fold_at m c (run4Of (ValueIdx.ix2 b o)) hR hlt, hrow, hch]

end Cert.BinBn

end
-- ==== Proof.lean ====
/-
  A binarized linear layer followed by batch normalisation: out[b, o] = BN_o(∑ₖ sign x[b, k] · sign w[o, k]).

  The kernel tiles the output into 2048 × 2048 blocks and the contraction into 32 groups of 128 positions, accumulating
  in the output block over the last grid axis, and applies the normalisation folded into one affine map,
  acc · (γ/s) + (β − μ · (γ/s)) with s = √(v + ε), at the last group. The reference contracts whole rows and normalises
  as (acc − μ)/s · γ + β. On the extended reals the two results are equal entry by entry wherever the channel's
  statistics γ, β, μ, v are real and the variance v is not negative: then s is a positive real (ε > 0), the binarized dot
  product is a real number (each sign is −1, 0 or 1), so both expressions are the same real number, and the 32 groups
  of 128 products are the 4096 products of the rows. (At a variance of exactly −ε the deviation is 0, the quotients by it
  are infinite, and the two arrangements can differ: the precondition's "variance ≥ 0" excludes it.)

  The kernel's sign is spelt through the sign bit; its idealization reads "negative" by comparison, which is the sign
  rule's statement at the two sites. Frames: the kernels' are the generated frame certificates, the reference's its
  generated run with the result dropped.
-/
import proofs.«108124_j70162585747567_2_alg».proof.Defs
import proofs.«108124_j70162585747567_2_alg».proof.Proof.Gen.Kernel
import proofs.«108124_j70162585747567_2_alg».proof.Proof.Gen.Kernel.Skeleton
import proofs.«108124_j70162585747567_2_alg».proof.Proof.Gen.Kernel.Launch
import proofs.«108124_j70162585747567_2_alg».proof.Proof.Gen.Kernel.Points
import proofs.«108124_j70162585747567_2_alg».proof.Proof.Gen.Kernel.Frame
import proofs.«108124_j70162585747567_2_alg».proof.Proof.Gen.KernelIdeal
import proofs.«108124_j70162585747567_2_alg».proof.Proof.Gen.KernelIdeal.Skeleton
import proofs.«108124_j70162585747567_2_alg».proof.Proof.Gen.KernelIdeal.Launch
import proofs.«108124_j70162585747567_2_alg».proof.Proof.Gen.KernelIdeal.Points
import proofs.«108124_j70162585747567_2_alg».proof.Proof.Gen.KernelIdeal.Frame
import proofs.«108124_j70162585747567_2_alg».proof.Proof.Gen.ReferenceIdeal
import proofs.«108124_j70162585747567_2_alg».proof.Proof.Gen.Pre_finite_inputs
import proofs.«108124_j70162585747567_2_alg».proof.Proof.Gen.KernelIdeal.Value
import proofs.«108124_j70162585747567_2_alg».proof.Proof.Gen.ReferenceIdeal.Run
import proofs.«108124_j70162585747567_2_alg».proof.Proof.Gen.ReferenceIdeal.Read
import proofs.«108124_j70162585747567_2_alg».proof.Proof.BnAlgebra
import proofs.«108124_j70162585747567_2_alg».proof.Proof.PreFacts
import proofs.«108124_j70162585747567_2_alg».proof.Proof.RefAt
import proofs.«108124_j70162585747567_2_alg».proof.Proof.KernelAt
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The two sites where the kernel reads a sign bit: the sign rule's statement at the block's shape. -/
theorem preserves : Cert.preserves_Kernel_KernelIdeal :=
  ⟨IdealRules.sign_bit.statement Cert.KernelIdeal.S2048x128 .f32, IdealRules.sign_bit.statement Cert.KernelIdeal.S2048x128 .f32⟩

/-- Under the precondition the reference's function of the kernel's argument arrays is the array the kernel leaves:
    entry by entry both are BN_o of the binarized dot product of rows b and o, in two arrangements that agree for real
    statistics with a nonnegative variance. -/
theorem results_agree (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v17 (F := Ideal) (Cert.BinBn.act m c) (Cert.BinBn.wt m c) (Cert.BinBn.gam m c)
        (Cert.BinBn.bet m c) (Cert.BinBn.mu m c) (Cert.BinBn.var m c)
      = Cert.KernelIdeal.Value.G4 m c := by
  funext i
  obtain ⟨b, o, rfl⟩ : ∃ (b : Fin 8192) (o : Fin 4096), i = ValueIdx.ix2 b o := ⟨i 0, i 1, ValueIdx.eq_ix2 i⟩
  obtain ⟨g, s, u, v, hg, hs, hu, hv, hv0⟩ := Cert.BinBn.stats_real _ _ _ _ _ _ (hpre c) o
  obtain ⟨e, he, hE⟩ := Cert.BinBn.eps_pos
  have hg' : Cert.BinBn.gam m c (ValueIdx.ix1 o) = (g : EReal) := hg
  have hs' : Cert.BinBn.bet m c (ValueIdx.ix1 o) = (s : EReal) := hs
  have hu' : Cert.BinBn.mu m c (ValueIdx.ix1 o) = (u : EReal) := hu
  have hv' : Cert.BinBn.var m c (ValueIdx.ix1 o) = (v : EReal) := hv
  rw [Cert.BinBn.ref_at, Cert.BinBn.kernel_at, hg', hs', hu', hv', hE]
  exact (Cert.BinBn.entry_eq _ _ b o g s u v e hv0 he).symm

theorem algebraic : Cert.algebraic_KernelIdeal_ReferenceIdeal := by
  intro m ρ m' ρ' hpre hagree
  refine ⟨fun c => Cert.KernelIdeal.Value.G4 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v17_eq _ _ _ _ _ _).trans (results_agree m hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
